-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S2000x128 : Shape := ⟨2, ![2000, 128]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 201
  | .vmem => 19
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S800000x1, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S800000x1, .f32⟩
  | 112 => ⟨S800000x64, .f32⟩
  | 113 => ⟨S800000x64, .f32⟩
  | 114 => ⟨S_, .f32⟩
  | 115 => ⟨S50000x64, .f32⟩
  | 116 => ⟨S800000x1, .i32⟩
  | 117 => ⟨S50000x64, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x1, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S50000, .f32⟩
  | 48 => ⟨S50000x1, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S512x64, .f32⟩
  | 57 => ⟨S50000x1, .i32⟩
  | 58 => ⟨S512x64, .f32⟩
  | 59 => ⟨S_, .f32⟩
  | 60 => ⟨S50000, .f32⟩
  | 61 => ⟨S_, .f32⟩
  | 62 => ⟨S512, .f32⟩
  | 63 => ⟨S50000x1, .i32⟩
  | 64 => ⟨S512, .f32⟩
  | 65 => ⟨S_, .f32⟩
  | 66 => ⟨S512, .f32⟩
  | 67 => ⟨S512, .f32⟩
  | 68 => ⟨S512x1, .f32⟩
  | 69 => ⟨S512x64, .f32⟩
  | 70 => ⟨S512x64, .f32⟩
  | 71 => ⟨S1x10, .f32⟩
  | 72 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S512x64, .f32⟩
  | .local _ .vmem, ⟨16, _⟩ => ⟨S64x10, .f32⟩
  | .local _ .vmem, ⟨17, _⟩ => ⟨S1x10, .f32⟩
  | .local _ .vmem, ⟨18, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S2000x128_S128x64_S2000x64_1_0_0_1_n_n_wf : DotDims.WF S2000x128 S128x64 S2000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v149) S512x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v150) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v151) S512x10.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 203
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S800000x1, .f32⟩
  | 112 => ⟨S800000x64, .f32⟩
  | 113 => ⟨S800000x64, .f32⟩
  | 114 => ⟨S_, .f32⟩
  | 115 => ⟨S50000x64, .f32⟩
  | 116 => ⟨S800000x1, .i32⟩
  | 117 => ⟨S50000x64, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S800000x1, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S50000, .f32⟩
  | 48 => ⟨S50000x1, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S512x64, .f32⟩
  | 57 => ⟨S50000x1, .i32⟩
  | 58 => ⟨S512x64, .f32⟩
  | 59 => ⟨S_, .f32⟩
  | 60 => ⟨S50000, .f32⟩
  | 61 => ⟨S_, .f32⟩
  | 62 => ⟨S512, .f32⟩
  | 63 => ⟨S50000x1, .i32⟩
  | 64 => ⟨S512, .f32⟩
  | 65 => ⟨S_, .f32⟩
  | 66 => ⟨S512, .f32⟩
  | 67 => ⟨S512, .f32⟩
  | 68 => ⟨S512x1, .f32⟩
  | 69 => ⟨S512x64, .f32⟩
  | 70 => ⟨S512x64, .f32⟩
  | 71 => ⟨S512x10, .f32⟩
  | 72 => ⟨S1x10, .f32⟩
  | 73 => ⟨S512x10, .f32⟩
  | 74 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_25 : Ref sig .tc := ⟨.hbm, 158, rfl⟩
abbrev main_v116 : Ref sig .tc := ⟨.hbm, 159, rfl⟩
abbrev main_v117 : Ref sig .tc := ⟨.hbm, 160, rfl⟩
abbrev main_c_26 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x10_S512x10_1_0_0_1_n_n_wf : DotDims.WF S512x64 S64x10 S512x10 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelRun.lean ====
/-
  The idealized kernel program's run with its result array named.

  The program is four matrix-product regions among stretches of host operations. Its buffers at each boundary are a
  fold from the launch memory: a host stretch applies its operations, a region replaces its output array by what its
  grid points wrote back and leaves every other buffer alone. Every weakly fair execution ends with each unscoped
  buffer at the last boundary's contents; read at the result buffer and at the eleven arguments, that is the statement
  below. The arguments are read back to their launch contents; the result is left as the fold's value, which the value
  modules open stage by stage.
-/
import proofs.«157302_j61280593379662_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v151) = W10 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v151 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Named

end
-- ==== Proof.Stages.lean ====
/-
  The host side of the graph convolution network, stage by stage, as pure functions of arrays.

  Between two product regions the program runs one stretch of host operations. A stretch reads a handful of buffers
  and its last operation writes the one buffer the next region multiplies; as a function of what it reads it is:

  * `src` / `dst`: rows 0 and 1 of the edge list, the edges' source and target nodes;
  * `conv h b s d`: one graph convolution after the linear map. With deg(n) = 1 + the number of edges whose target
    is n and dinv = deg^(-1/2), the message of edge e is h[s e] · (dinv[s e] · dinv[d e]); messages are summed into
    their target rows, the self-loop term h · dinv² is added, then the bias row b. Node ids are wrapped as array
    indexing wraps them (a negative id has the node count added) before a gather, and used as they are by the sums;
  * `relu`: the maximum with zero;
  * `pool h batch`: the mean of the node rows of each graph: rows summed by graph id, divided by max(count, 1).

  Each stretch's fold over any starting contents X, read at its last buffer, is the stage function of X at the
  buffers the stretch reads; a buffer no operation of the stretch writes keeps X's contents.
-/
import proofs.«157302_j61280593379662_1_alg».proof.Proof.Gen.KernelIdeal.Launch
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable {F : FTy → Type} [FloatOps F]

/-- The contents of a buffer of shape `S` and element type `e`. -/
abbrev Arr (F : FTy → Type) (S : Shape) (e : EltTy) : Type := (⟨S, e⟩ : BufTy).Contents (Elt F)

/-- Row 0 of the edge list: the source node of every edge. -/
def src (e : Arr F S2x800000 .i32) : Arr F S800000 .i32 :=
  shapeCast S800000 ((extractStridedSlice S1x800000 ![0, 0] · slices_S2x800000_S1x800000_0_0 : Arr F S2x800000 .i32 → Arr F S1x800000 .i32) e) shapeCasts_S1x800000_S800000

/-- Row 1 of the edge list: the target node of every edge. -/
def dst (e : Arr F S2x800000 .i32) : Arr F S800000 .i32 :=
  shapeCast S800000 ((extractStridedSlice S1x800000 ![1, 0] · slices_S2x800000_S1x800000_1_0 : Arr F S2x800000 .i32 → Arr F S1x800000 .i32) e) shapeCasts_S1x800000_S800000

/-- Node ids wrapped the way array indexing wraps them: a negative id has 50000 added. -/
def wrap (s : Arr F S800000 .i32) : Arr F S800000 .i32 :=
  (select : Arr F S800000 .i1 → Arr F S800000 .i32 → Arr F S800000 .i32 → Arr F S800000 .i32)
    ((cmpi .slt : Arr F S800000 .i32 → Arr F S800000 .i32 → Arr F S800000 .i1) s
      ((broadcastInDim S800000 ![] bcast_S_S800000 : Arr F S_ .i32 → Arr F S800000 .i32) (constantI S_ 32 0#32)))
    ((addi : Arr F S800000 .i32 → Arr F S800000 .i32 → Arr F S800000 .i32) s
      ((broadcastInDim S800000 ![] bcast_S_S800000 : Arr F S_ .i32 → Arr F S800000 .i32) (constantI S_ 32 50000#32)))
    s

/-- An index vector set as a column of one-entry index rows. -/
def col (s : Arr F S800000 .i32) : Arr F S800000x1 .i32 :=
  (broadcastInDim S800000x1 ![0] bcast_S800000_S800000x1_0 : Arr F S800000 .i32 → Arr F S800000x1 .i32) s

/-- deg^(-1/2), where deg(n) is one plus the number of edges with target n. -/
def dinv (d : Arr F S800000 .i32) : Arr F S50000 .f32 :=
  (Host.rsqrt : Arr F S50000 .f32 → Arr F S50000 .f32)
    ((addf : Arr F S50000 .f32 → Arr F S50000 .f32 → Arr F S50000 .f32)
      (Host.scatterAdd scatter_S50000_S800000x1_S800000_n_0_0_1
        ((broadcastInDim S50000 ![] bcast_S_S50000 : Arr F S_ .f32 → Arr F S50000 .f32) (constant S_ .f32 0x00000000#32))
        (col d)
        ((broadcastInDim S800000 ![] bcast_S_S800000 : Arr F S_ .f32 → Arr F S800000 .f32) (constant S_ .f32 0x3F800000#32)))
      ((broadcastInDim S50000 ![] bcast_S_S50000 : Arr F S_ .f32 → Arr F S50000 .f32) (constant S_ .f32 0x3F800000#32)))

/-- One graph convolution after its linear map: normalized messages summed into their targets, the self-loop term
    and the bias row added. -/
def conv (h : Arr F S50000x64 .f32) (b : Arr F S64 .f32) (s d : Arr F S800000 .i32) : Arr F S50000x64 .f32 :=
  have ew : Arr F S800000 .f32 := (mulf : Arr F S800000 .f32 → Arr F S800000 .f32 → Arr F S800000 .f32)
    (Host.gather gather_S50000_S800000x1_S800000_n_0_n_n_0_1_1 (dinv d) (col (wrap s)))
    (Host.gather gather_S50000_S800000x1_S800000_n_0_n_n_0_1_1 (dinv d) (col (wrap d)))
  have msg : Arr F S800000x64 .f32 := (mulf : Arr F S800000x64 .f32 → Arr F S800000x64 .f32 → Arr F S800000x64 .f32)
    (Host.gather gather_S50000x64_S800000x1_S800000x64_1_0_n_n_0_1_164 h (col (wrap s)))
    ((broadcastInDim S800000x64 ![0, 1] bcast_S800000x1_S800000x64_0_1 : Arr F S800000x1 .f32 → Arr F S800000x64 .f32)
      ((broadcastInDim S800000x1 ![0] bcast_S800000_S800000x1_0 : Arr F S800000 .f32 → Arr F S800000x1 .f32) ew))
  have agg : Arr F S50000x64 .f32 := Host.scatterAdd scatter_S50000x64_S800000x1_S800000x64_1_0_0_1
    ((broadcastInDim S50000x64 ![] bcast_S_S50000x64 : Arr F S_ .f32 → Arr F S50000x64 .f32) (constant S_ .f32 0x00000000#32))
    (col d) msg
  have self : Arr F S50000x64 .f32 := (mulf : Arr F S50000x64 .f32 → Arr F S50000x64 .f32 → Arr F S50000x64 .f32) h
    ((broadcastInDim S50000x64 ![0, 1] bcast_S50000x1_S50000x64_0_1 : Arr F S50000x1 .f32 → Arr F S50000x64 .f32)
      ((broadcastInDim S50000x1 ![0] bcast_S50000_S50000x1_0 : Arr F S50000 .f32 → Arr F S50000x1 .f32)
        ((mulf : Arr F S50000 .f32 → Arr F S50000 .f32 → Arr F S50000 .f32) (dinv d) (dinv d))))
  (addf : Arr F S50000x64 .f32 → Arr F S50000x64 .f32 → Arr F S50000x64 .f32)
    ((addf : Arr F S50000x64 .f32 → Arr F S50000x64 .f32 → Arr F S50000x64 .f32) agg self)
    ((broadcastInDim S50000x64 ![0, 1] bcast_S1x64_S50000x64_0_1 : Arr F S1x64 .f32 → Arr F S50000x64 .f32)
      ((broadcastInDim S1x64 ![1] bcast_S64_S1x64_1 : Arr F S64 .f32 → Arr F S1x64 .f32) b))

/-- The maximum with zero. -/
def relu (x : Arr F S50000x64 .f32) : Arr F S50000x64 .f32 :=
  (maximumf : Arr F S50000x64 .f32 → Arr F S50000x64 .f32 → Arr F S50000x64 .f32) x
    ((broadcastInDim S50000x64 ![] bcast_S_S50000x64 : Arr F S_ .f32 → Arr F S50000x64 .f32) (constant S_ .f32 0x00000000#32))

/-- The mean node row of each graph: rows summed by graph id over max(number of the graph's nodes, 1). -/
def pool (h : Arr F S50000x64 .f32) (batch : Arr F S50000 .i32) : Arr F S512x64 .f32 :=
  have bcol : Arr F S50000x1 .i32 := (broadcastInDim S50000x1 ![0] bcast_S50000_S50000x1_0 : Arr F S50000 .i32 → Arr F S50000x1 .i32) batch
  have sums : Arr F S512x64 .f32 := Host.scatterAdd scatter_S512x64_S50000x1_S50000x64_1_0_0_1
    ((broadcastInDim S512x64 ![] bcast_S_S512x64 : Arr F S_ .f32 → Arr F S512x64 .f32) (constant S_ .f32 0x00000000#32)) bcol h
  have cnts : Arr F S512 .f32 := Host.scatterAdd scatter_S512_S50000x1_S50000_n_0_0_1
    ((broadcastInDim S512 ![] bcast_S_S512 : Arr F S_ .f32 → Arr F S512 .f32) (constant S_ .f32 0x00000000#32)) bcol
    ((broadcastInDim S50000 ![] bcast_S_S50000 : Arr F S_ .f32 → Arr F S50000 .f32) (constant S_ .f32 0x3F800000#32))
  have den : Arr F S512 .f32 := (maximumf : Arr F S512 .f32 → Arr F S512 .f32 → Arr F S512 .f32) cnts
    ((broadcastInDim S512 ![] bcast_S_S512 : Arr F S_ .f32 → Arr F S512 .f32) (constant S_ .f32 0x3F800000#32))
  (Host.divf : Arr F S512x64 .f32 → Arr F S512x64 .f32 → Arr F S512x64 .f32) sums
    ((broadcastInDim S512x64 ![0, 1] bcast_S512x1_S512x64_0_1 : Arr F S512x1 .f32 → Arr F S512x64 .f32)
      ((broadcastInDim S512x1 ![0] bcast_S512_S512x1_0 : Arr F S512 .f32 → Arr F S512x1 .f32) den))

/-- The bias vector set as a one-row matrix. -/
def biasRow (b : Arr F S10 .f32) : Arr F S1x10 .f32 := shapeCast S1x10 b shapeCasts_S10_S1x10

variable (X : Valuation τ sig (Elt F))

/-! ## The stretch before the first region -/

theorem pre_src : StableHlo.after hostOps0 X (Proc.devRef .tc main_v1) = src (X (Proc.devRef .tc main_arg1)) := by
  after_results_simp <;> rfl

theorem pre_dst : StableHlo.after hostOps0 X (Proc.devRef .tc main_v3) = dst (X (Proc.devRef .tc main_arg1)) := by
  after_results_simp <;> rfl

/-! ## The stretch between the first and second regions -/

theorem layer1 : StableHlo.after hostOps1_1 (StableHlo.after hostOps1 X) (Proc.devRef .tc main_v48)
    = relu (conv (X (Proc.devRef .tc main_v4)) (X (Proc.devRef .tc main_arg4)) (X (Proc.devRef .tc main_v1)) (X (Proc.devRef .tc main_v3))) := by
  after_results_simp <;> rfl

/-! ## The stretch between the second and third regions -/

theorem layer2 : StableHlo.after hostOps2_1 (StableHlo.after hostOps2 X) (Proc.devRef .tc main_v93)
    = relu (conv (X (Proc.devRef .tc main_v49)) (X (Proc.devRef .tc main_arg6)) (X (Proc.devRef .tc main_v1)) (X (Proc.devRef .tc main_v3))) := by
  after_results_simp <;> rfl

/-! ## The stretch between the third and fourth regions -/

theorem layer3 : StableHlo.after hostOps3 X (Proc.devRef .tc main_v149)
    = pool (conv (X (Proc.devRef .tc main_v94)) (X (Proc.devRef .tc main_arg8)) (X (Proc.devRef .tc main_v1)) (X (Proc.devRef .tc main_v3))) (X (Proc.devRef .tc main_arg2)) := by
  after_results_simp <;> rfl

theorem bias3 : StableHlo.after hostOps3 X (Proc.devRef .tc main_v150) = biasRow (X (Proc.devRef .tc main_arg10)) := by
  after_results_simp <;> rfl

end Cert.KernelIdeal.Stages

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.Region0.lean ====
/-
  The first product region as one function of whole arrays.

  The region's grid has 25 points. Point t fetches rows 2000·t … 2000·t + 1999 of the node features (all 128
  columns) and the whole 128 × 64 weight, multiplies them on the matrix unit into a zero accumulator (the change of
  float format on the way in is the identity on the extended reals), and writes the 2000 × 64 block back to rows
  2000·t … of the output. Entry (2000·t + p, g) of the output is therefore the sum over k < 128 of
  feature(2000·t + p, k) · weight(k, g): the host's plain contraction of the two arrays at that entry. The 25 blocks
  tile the output, so after the region the output array IS that contraction.
-/
import proofs.«157302_j61280593379662_1_alg».proof.Proof.Gen.KernelIdeal.Frame
import proofs.«157302_j61280593379662_1_alg».proof.Proof.LibPlainDot
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat)

/-- The plain contraction [50000,128] × [128,64] of two whole arrays, as the host computes it. -/
def prod (a : FVec Ideal S50000x128 .f32) (w : FVec Ideal S128x64 .f32) : FVec Ideal S50000x64 .f32 :=
  Host.dotGeneral (F := Ideal) (DotDims.plain 50000 128 64) none a w

theorem prod_apply (a : FVec Ideal S50000x128 .f32) (w : FVec Ideal S128x64 .f32) (r : Fin 50000) (g : Fin 64) :
    prod a w (ix2 r g) = ∑ k : Fin 128, a (ix2 r k) * w (ix2 k g) :=
  PlainDot.hostDot_apply (DotDims.plain 50000 128 64) rfl a w r g

/-- The body's stored value at entry (p, g) of a block: the row of the feature block against the column of the weight. -/
theorem pay_apply (x0 : Vec Ideal S2000x128 .f32) (x1 : Vec Ideal S128x64 .f32) (p : Fin 2000) (g : Fin 64) :
    k0_pay1 (F := Ideal) x0 x1 (ix2 p g) = ∑ k : Fin 128, x0 (ix2 p k) * x1 (ix2 k g) := by
  unfold k0_pay1
  exact PlainDot.matmul_zero_apply (φ₁ := .bf16) (φ₂ := .bf16) dot_S2000x128_S128x64_S2000x64_1_0_0_1_n_n rfl
    (truncf .bf16 x0 bitsLt_bf16_f32) (truncf .bf16 x1 bitsLt_bf16_f32) p g

theorem hz : (![0, 0] : Fin 2 → Nat) = fun _ => 0 := funext fun a => by fin_cases a <;> rfl

/-- The index maps over the grid: the feature and output windows move down one block of rows per point, the weight
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 25 := lt_of_lt_of_eq t.isLt N_0

/-- Row p of point t's block is row 2000·t + p of the array. -/
def row (t : Fin cfg0.N) (p : Fin 2000) : Fin 50000 := ⟨t.val * 2000 + p.val, by have := t_lt t; omega⟩

variable (V : (c : Dev nD) → (b : Ref sig .tc) → Buf (Elt Ideal) ((c : Thread nD τ).loc b))

theorem emb0 (t : Fin cfg0.N) (p : Fin 2000) (k : Fin 128) :
    ((cfg0.win 0).blk t).view.emb (ix2 p k) = ix2 (row t p) k := by
  obtain ⟨e0, e1, e2, e3, e4, e5⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb1 (t : Fin cfg0.N) (k : Fin 128) (g : Fin 64) :
    ((cfg0.win 1).blk t).view.emb (ix2 k g) = ix2 k g := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 64 + 1 * g.val = g.val; omega

theorem emb2 (t : Fin cfg0.N) (p : Fin 2000) (g : Fin 64) :
    ((cfg0.win 2).blk t).view.emb (ix2 p g) = ix2 (row t p) g := by
  obtain ⟨e0, e1, e2, e3, e4, e5⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 64 + 1 * g.val = g.val; omega

/-- Entry (p, k) of point t's first input block is entry (2000·t + p, k) of its array as the region finds it. -/
theorem read0 (c : Dev nD) (t : Fin cfg0.N) (p : Fin 2000) (k : Fin 128) :
    iblk0 V c 0 t (ix2 p k) = V c main_arg0 (ix2 (row t p) k) := by
  show V c main_arg0 (((cfg0.win 0).blk t).view.emb (ix2 p k)) = _
  rw [emb0 t p k]

/-- Point t's weight block is the whole weight array as the region finds it. -/
theorem read1 (c : Dev nD) (t : Fin cfg0.N) (k : Fin 128) (g : Fin 64) :
    iblk0 V c 1 t (ix2 k g) = V c main_arg3 (ix2 k g) := by
  show V c main_arg3 (((cfg0.win 1).blk t).view.emb (ix2 k g)) = _
  rw [emb1 t k g]

/-- What point t writes back is block t of the contraction of the arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  funext j
  obtain ⟨p, g, rfl⟩ : ∃ (p : Fin 2000) (g : Fin 64), j = ix2 p g := ⟨j 0, j 1, eq_ix2 j⟩
  refine (pay_apply (iblk0 V c 0 t) (iblk0 V c 1 t) p g).trans ?_
  show _ = prod (V c main_arg0) (V c main_arg3) (((cfg0.win 2).blk t).view.emb (ix2 p g))
  rw [emb2 t p g, prod_apply]
  refine Finset.sum_congr rfl fun k _ => ?_
  rw [read0 V c t p k, read1 V c t k g]

/-- An index of the output is in point t's block iff its row is among the block's 2000 rows. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Every entry of the output lies in the block of the point its row divided by 2000 names. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  have ht : t.val = (i 0).val / 2000 := rfl
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region its output array is the host's contraction of the two input arrays as the region found them. -/
theorem value (c : Dev nD) :
    (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Region1.lean ====
/-
  The second product region as one function of whole arrays.

  The region's grid has 25 points. Point t fetches rows 2000·t … 2000·t + 1999 of the hidden features (all 64
  columns) and the whole 64 × 64 weight, multiplies them on the matrix unit into a zero accumulator (the shape cast
  on the way in is a cast to the same shape, the change of float format the identity on the extended reals), and
  writes the 2000 × 64 block back to rows 2000·t … of the output. Entry (2000·t + p, g) of the output is therefore
  the sum over k < 64 of hidden(2000·t + p, k) · weight(k, g): the host's plain contraction of the two arrays at that
  entry. The 25 blocks tile the output, so after the region the output array IS that contraction.
-/
import proofs.«157302_j61280593379662_1_alg».proof.Proof.Gen.KernelIdeal.Frame
import proofs.«157302_j61280593379662_1_alg».proof.Proof.LibPlainDot
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat)

/-- The plain contraction [50000,64] × [64,64] of two whole arrays, as the host computes it. -/
def prod (a : FVec Ideal S50000x64 .f32) (w : FVec Ideal S64x64 .f32) : FVec Ideal S50000x64 .f32 :=
  Host.dotGeneral (F := Ideal) (DotDims.plain 50000 64 64) none a w

theorem prod_apply (a : FVec Ideal S50000x64 .f32) (w : FVec Ideal S64x64 .f32) (r : Fin 50000) (g : Fin 64) :
    prod a w (ix2 r g) = ∑ k : Fin 64, a (ix2 r k) * w (ix2 k g) :=
  PlainDot.hostDot_apply (DotDims.plain 50000 64 64) rfl a w r g

/-- The body's stored value at entry (p, g) of a block: the row of the hidden block against the column of the weight. -/
theorem pay_apply (x0 : Vec Ideal S2000x64 .f32) (x1 : Vec Ideal S64x64 .f32) (p : Fin 2000) (g : Fin 64) :
    k1_pay1 (F := Ideal) x0 x1 (ix2 p g) = ∑ k : Fin 64, x0 (ix2 p k) * x1 (ix2 k g) := by
  unfold k1_pay1
  refine (PlainDot.matmul_zero_apply (φ₁ := .bf16) (φ₂ := .bf16) dot_S2000x64_S64x64_S2000x64_1_0_0_1_n_n rfl
    (truncf .bf16 (shapeCast S2000x64 x0 shapeCasts_S2000x64_S2000x64) bitsLt_bf16_f32) (truncf .bf16 x1 bitsLt_bf16_f32) p g).trans ?_
  refine Finset.sum_congr rfl fun k _ => ?_
  show shapeCast S2000x64 x0 shapeCasts_S2000x64_S2000x64 (ix2 p k) * x1 (ix2 k g) = _
  rw [shapeCast_self]

theorem hz : (![0, 0] : Fin 2 → Nat) = fun _ => 0 := funext fun a => by fin_cases a <;> rfl

/-- The index maps over the grid: the hidden-feature and output windows move down one block of rows per point, the
    weight window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 25 := lt_of_lt_of_eq t.isLt N_1

/-- Row p of point t's block is row 2000·t + p of the array. -/
def row (t : Fin cfg1.N) (p : Fin 2000) : Fin 50000 := ⟨t.val * 2000 + p.val, by have := t_lt t; omega⟩

variable (V : (c : Dev nD) → (b : Ref sig .tc) → Buf (Elt Ideal) ((c : Thread nD τ).loc b))

theorem emb0 (t : Fin cfg1.N) (p : Fin 2000) (k : Fin 64) :
    ((cfg1.win 0).blk t).view.emb (ix2 p k) = ix2 (row t p) k := by
  obtain ⟨e0, e1, e2, e3, e4, e5⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 64 + 1 * k.val = k.val; omega

theorem emb1 (t : Fin cfg1.N) (k : Fin 64) (g : Fin 64) :
    ((cfg1.win 1).blk t).view.emb (ix2 k g) = ix2 k g := by
  obtain ⟨e0, e1, e2, e3, e4, e5⟩ := idx_facts t
  funext a; apply Fin.ext
  match a with
  | ⟨0, _⟩ => show win1_1.index t (0 : Fin 2) * 64 + 1 * k.val = k.val; omega
  | ⟨1, _⟩ => show win1_1.index t (1 : Fin 2) * 64 + 1 * g.val = g.val; omega

theorem emb2 (t : Fin cfg1.N) (p : Fin 2000) (g : Fin 64) :
    ((cfg1.win 2).blk t).view.emb (ix2 p g) = ix2 (row t p) g := by
  obtain ⟨e0, e1, e2, e3, e4, e5⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 64 + 1 * g.val = g.val; omega

/-- Entry (p, k) of point t's first input block is entry (2000·t + p, k) of its array as the region finds it. -/
theorem read0 (c : Dev nD) (t : Fin cfg1.N) (p : Fin 2000) (k : Fin 64) :
    iblk1 V c 0 t (ix2 p k) = V c main_v48 (ix2 (row t p) k) := by
  show V c main_v48 (((cfg1.win 0).blk t).view.emb (ix2 p k)) = _
  rw [emb0 t p k]

/-- Point t's weight block is the whole weight array as the region finds it. -/
theorem read1 (c : Dev nD) (t : Fin cfg1.N) (k : Fin 64) (g : Fin 64) :
    iblk1 V c 1 t (ix2 k g) = V c main_arg5 (ix2 k g) := by
  show V c main_arg5 (((cfg1.win 1).blk t).view.emb (ix2 k g)) = _
  rw [emb1 t k g]

/-- What point t writes back is block t of the contraction of the arrays as the region finds them. -/
theorem flushed_eq (c : Dev nD) (t : Fin cfg1.N) :
    (dat1 V c).flushed 2 t = ((cfg1.win 2).blk t).view.read (Elt Ideal) (prod (V c main_v48) (V c main_arg5)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  funext j
  obtain ⟨p, g, rfl⟩ : ∃ (p : Fin 2000) (g : Fin 64), j = ix2 p g := ⟨j 0, j 1, eq_ix2 j⟩
  refine (pay_apply (iblk1 V c 0 t) (iblk1 V c 1 t) p g).trans ?_
  show _ = prod (V c main_v48) (V c main_arg5) (((cfg1.win 2).blk t).view.emb (ix2 p g))
  rw [emb2 t p g, prod_apply]
  refine Finset.sum_congr rfl fun k _ => ?_
  rw [read0 V c t p k, read1 V c t k g]

/-- An index of the output is in point t's block iff its row is among the block's 2000 rows. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v49).slice (win1_2.rect t)).set ↔ _
  rw [View.set_slice_whole, Rect.mem_set_unit]
  exact Iff.rfl

/-- Every entry of the output lies in the block of the point its row divided by 2000 names. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  have ht : t.val = (i 0).val / 2000 := rfl
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the region its output array is the host's contraction of the two input arrays as the region found them. -/
theorem value (c : Dev nD) :
    (dat1 V c).arrAt 2 cfg1.N = prod (V c main_v48) (V c main_arg5) :=
  (dat1 V c).arrAt_eq_of_cover 2 (prod (V c main_v48) (V c main_arg5)) (fun t _ => flushed_eq V c t) cover

end Cert.KernelIdeal.Region1

end
-- ==== Proof.Region2.lean ====
/-
  The third product region as one function of whole arrays.

  The region's grid has 25 points. Point t fetches rows 2000·t … 2000·t + 1999 of the hidden features (all 64
  columns) and the whole 64 × 64 weight, multiplies them on the matrix unit into a zero accumulator (the shape cast
  on the way in is a cast to the same shape, the change of float format the identity on the extended reals), and
  writes the 2000 × 64 block back to rows 2000·t … of the output. Entry (2000·t + p, g) of the output is therefore
  the sum over k < 64 of hidden(2000·t + p, k) · weight(k, g): the host's plain contraction of the two arrays at that
  entry. The 25 blocks tile the output, so after the region the output array IS that contraction.
-/
import proofs.«157302_j61280593379662_1_alg».proof.Proof.Gen.KernelIdeal.Frame
import proofs.«157302_j61280593379662_1_alg».proof.Proof.LibPlainDot
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat)

/-- The plain contraction [50000,64] × [64,64] of two whole arrays, as the host computes it. -/
def prod (a : FVec Ideal S50000x64 .f32) (w : FVec Ideal S64x64 .f32) : FVec Ideal S50000x64 .f32 :=
  Host.dotGeneral (F := Ideal) (DotDims.plain 50000 64 64) none a w

theorem prod_apply (a : FVec Ideal S50000x64 .f32) (w : FVec Ideal S64x64 .f32) (r : Fin 50000) (g : Fin 64) :
    prod a w (ix2 r g) = ∑ k : Fin 64, a (ix2 r k) * w (ix2 k g) :=
  PlainDot.hostDot_apply (DotDims.plain 50000 64 64) rfl a w r g

/-- The body's stored value at entry (p, g) of a block: the row of the hidden block against the column of the weight. -/
theorem pay_apply (x0 : Vec Ideal S2000x64 .f32) (x1 : Vec Ideal S64x64 .f32) (p : Fin 2000) (g : Fin 64) :
    k2_pay1 (F := Ideal) x0 x1 (ix2 p g) = ∑ k : Fin 64, x0 (ix2 p k) * x1 (ix2 k g) := by
  unfold k2_pay1
  refine (PlainDot.matmul_zero_apply (φ₁ := .bf16) (φ₂ := .bf16) dot_S2000x64_S64x64_S2000x64_1_0_0_1_n_n rfl
    (truncf .bf16 (shapeCast S2000x64 x0 shapeCasts_S2000x64_S2000x64) bitsLt_bf16_f32) (truncf .bf16 x1 bitsLt_bf16_f32) p g).trans ?_
  refine Finset.sum_congr rfl fun k _ => ?_
  show shapeCast S2000x64 x0 shapeCasts_S2000x64_S2000x64 (ix2 p k) * x1 (ix2 k g) = _
  rw [shapeCast_self]

theorem hz : (![0, 0] : Fin 2 → Nat) = fun _ => 0 := funext fun a => by fin_cases a <;> rfl

/-- The index maps over the grid: the hidden-feature and output windows move down one block of rows per point, the
    weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 25 := lt_of_lt_of_eq t.isLt N_2

/-- Row p of point t's block is row 2000·t + p of the array. -/
def row (t : Fin cfg2.N) (p : Fin 2000) : Fin 50000 := ⟨t.val * 2000 + p.val, by have := t_lt t; omega⟩

variable (V : (c : Dev nD) → (b : Ref sig .tc) → Buf (Elt Ideal) ((c : Thread nD τ).loc b))

theorem emb0 (t : Fin cfg2.N) (p : Fin 2000) (k : Fin 64) :
    ((cfg2.win 0).blk t).view.emb (ix2 p k) = ix2 (row t p) k := by
  obtain ⟨e0, e1, e2, e3, e4, e5⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega

theorem emb1 (t : Fin cfg2.N) (k : Fin 64) (g : Fin 64) :
    ((cfg2.win 1).blk t).view.emb (ix2 k g) = ix2 k g := by
  obtain ⟨e0, e1, e2, e3, e4, e5⟩ := idx_facts t
  funext a; apply Fin.ext
  match a with
  | ⟨0, _⟩ => show win2_1.index t (0 : Fin 2) * 64 + 1 * k.val = k.val; omega
  | ⟨1, _⟩ => show win2_1.index t (1 : Fin 2) * 64 + 1 * g.val = g.val; omega

theorem emb2 (t : Fin cfg2.N) (p : Fin 2000) (g : Fin 64) :
    ((cfg2.win 2).blk t).view.emb (ix2 p g) = ix2 (row t p) g := by
  obtain ⟨e0, e1, e2, e3, e4, e5⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 64 + 1 * g.val = g.val; omega

/-- Entry (p, k) of point t's first input block is entry (2000·t + p, k) of its array as the region finds it. -/
theorem read0 (c : Dev nD) (t : Fin cfg2.N) (p : Fin 2000) (k : Fin 64) :
    iblk2 V c 0 t (ix2 p k) = V c main_v93 (ix2 (row t p) k) := by
  show V c main_v93 (((cfg2.win 0).blk t).view.emb (ix2 p k)) = _
  rw [emb0 t p k]

/-- Point t's weight block is the whole weight array as the region finds it. -/
theorem read1 (c : Dev nD) (t : Fin cfg2.N) (k : Fin 64) (g : Fin 64) :
    iblk2 V c 1 t (ix2 k g) = V c main_arg7 (ix2 k g) := by
  show V c main_arg7 (((cfg2.win 1).blk t).view.emb (ix2 k g)) = _
  rw [emb1 t k g]

/-- What point t writes back is block t of the contraction of the arrays as the region finds them. -/
theorem flushed_eq (c : Dev nD) (t : Fin cfg2.N) :
    (dat2 V c).flushed 2 t = ((cfg2.win 2).blk t).view.read (Elt Ideal) (prod (V c main_v93) (V c main_arg7)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  funext j
  obtain ⟨p, g, rfl⟩ : ∃ (p : Fin 2000) (g : Fin 64), j = ix2 p g := ⟨j 0, j 1, eq_ix2 j⟩
  refine (pay_apply (iblk2 V c 0 t) (iblk2 V c 1 t) p g).trans ?_
  show _ = prod (V c main_v93) (V c main_arg7) (((cfg2.win 2).blk t).view.emb (ix2 p g))
  rw [emb2 t p g, prod_apply]
  refine Finset.sum_congr rfl fun k _ => ?_
  rw [read0 V c t p k, read1 V c t k g]

/-- An index of the output is in point t's block iff its row is among the block's 2000 rows. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v94).slice (win2_2.rect t)).set ↔ _
  rw [View.set_slice_whole, Rect.mem_set_unit]
  exact Iff.rfl

/-- Every entry of the output lies in the block of the point its row divided by 2000 names. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  have ht : t.val = (i 0).val / 2000 := rfl
  obtain ⟨e0, e1, e2, e3, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region its output array is the host's contraction of the two input arrays as the region found them. -/
theorem value (c : Dev nD) :
    (dat2 V c).arrAt 2 cfg2.N = prod (V c main_v93) (V c main_arg7) :=
  (dat2 V c).arrAt_eq_of_cover 2 (prod (V c main_v93) (V c main_arg7)) (fun t _ => flushed_eq V c t) cover

end Cert.KernelIdeal.Region2

end
-- ==== Proof.Region3.lean ====
/-
  The last region as one function of whole arrays.

  The region's grid has one point. It fetches the whole 512 × 64 pooled array, the whole 64 × 10 weight and the
  one-row bias, multiplies on the matrix unit into a zero accumulator (the shape casts on the way in are casts to the
  same shape, the change of float format the identity on the extended reals), adds the bias row spread down the 512
  rows, and writes the whole 512 × 10 result back. So after the region the output array is the host's plain
  contraction of the two arrays plus the spread bias row.
-/
import proofs.«157302_j61280593379662_1_alg».proof.Proof.Gen.KernelIdeal.Frame
import proofs.«157302_j61280593379662_1_alg».proof.Proof.LibPlainDot
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen
open Idealize.ShloMosaic.Pipeline (Dat)

/-- The plain contraction [512,64] × [64,10] of two whole arrays, as the host computes it, plus the one-row bias
    spread down the rows. -/
def affine (a : FVec Ideal S512x64 .f32) (w : FVec Ideal S64x10 .f32) (b : FVec Ideal S1x10 .f32) : FVec Ideal S512x10 .f32 :=
  addf (Host.dotGeneral (F := Ideal) (DotDims.plain 512 64 10) none a w) (broadcastTo S512x10 b broadcasts_S1x10_S512x10)

/-- The body's stored value is that function of its three loaded blocks. -/
theorem pay_eq (x0 : Vec Ideal S512x64 .f32) (x1 : Vec Ideal S64x10 .f32) (x2 : Vec Ideal S1x10 .f32) :
    k3_pay1 (F := Ideal) x0 x1 x2 = affine x0 x1 x2 := by
  funext j
  obtain ⟨p, g, rfl⟩ : ∃ (p : Fin 512) (g : Fin 10), j = ix2 p g := ⟨j 0, j 1, eq_ix2 j⟩
  have e1 : matmul (F := Ideal) dot_S512x64_S64x10_S512x10_1_0_0_1_n_n none
        (truncf .bf16 (shapeCast S512x64 x0 shapeCasts_S512x64_S512x64) bitsLt_bf16_f32) (truncf .bf16 x1 bitsLt_bf16_f32)
        (constant S512x10 .f32 0x00000000#32) (ix2 p g)
      = Host.dotGeneral (F := Ideal) (φ₁ := .f32) (φ₂ := .f32) (DotDims.plain 512 64 10) none x0 x1 (ix2 p g) := by
    rw [shapeCast_self]
    exact (PlainDot.matmul_zero_apply (φ₁ := .bf16) (φ₂ := .bf16) dot_S512x64_S64x10_S512x10_1_0_0_1_n_n rfl
      (truncf .bf16 x0 bitsLt_bf16_f32) (truncf .bf16 x1 bitsLt_bf16_f32) p g).trans
      (PlainDot.hostDot_apply (φ₁ := .f32) (φ₂ := .f32) (DotDims.plain 512 64 10) rfl x0 x1 p g).symm
  unfold k3_pay1 affine
  show matmul (F := Ideal) dot_S512x64_S64x10_S512x10_1_0_0_1_n_n none
        (truncf .bf16 (shapeCast S512x64 x0 shapeCasts_S512x64_S512x64) bitsLt_bf16_f32) (truncf .bf16 x1 bitsLt_bf16_f32)
        (constant S512x10 .f32 0x00000000#32) (ix2 p g)
      + broadcastTo S512x10 (shapeCast S1x10 x2 shapeCasts_S1x10_S1x10) broadcasts_S1x10_S512x10 (ix2 p g)
    = Host.dotGeneral (F := Ideal) (φ₁ := .f32) (φ₂ := .f32) (DotDims.plain 512 64 10) none x0 x1 (ix2 p g)
      + broadcastTo S512x10 x2 broadcasts_S1x10_S512x10 (ix2 p g)
  rw [e1, shapeCast_self]

theorem hz : (![0, 0] : Fin 2 → Nat) = fun _ => 0 := funext fun a => by fin_cases a <;> rfl

/-- The index maps at the one grid point: every window sits at block (0, 0). -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

variable (V : (c : Dev nD) → (b : Ref sig .tc) → Buf (Elt Ideal) ((c : Thread nD τ).loc b))

/-- The pooled window's one block is its whole array. -/
theorem blk0 (c : Dev nD) (t : Fin cfg3.N) : iblk3 V c 0 t = V c main_v149 := by
  obtain ⟨e0, e1, e2, e3, e4, e5, e6, e7⟩ := idx_facts t
  funext j
  show V c main_v149 (((cfg3.win 0).blk t).view.emb j) = V c main_v149 j
  refine congrArg _ (funext fun a => Fin.ext ?_)
  match a with
  | ⟨0, _⟩ => show win3_0.index t (0 : Fin 2) * 512 + 1 * (j 0).val = (j 0).val; omega
  | ⟨1, _⟩ => show win3_0.index t (1 : Fin 2) * 64 + 1 * (j 1).val = (j 1).val; omega

/-- The weight window's one block is its whole array. -/
theorem blk1 (c : Dev nD) (t : Fin cfg3.N) : iblk3 V c 1 t = V c main_arg9 := by
  obtain ⟨e0, e1, e2, e3, e4, e5, e6, e7⟩ := idx_facts t
  funext j
  show V c main_arg9 (((cfg3.win 1).blk t).view.emb j) = V c main_arg9 j
  refine congrArg _ (funext fun a => Fin.ext ?_)
  match a with
  | ⟨0, _⟩ => show win3_1.index t (0 : Fin 2) * 64 + 1 * (j 0).val = (j 0).val; omega
  | ⟨1, _⟩ => show win3_1.index t (1 : Fin 2) * 10 + 1 * (j 1).val = (j 1).val; omega

/-- The bias window's one block is its whole array. -/
theorem blk2 (c : Dev nD) (t : Fin cfg3.N) : iblk3 V c 2 t = V c main_v150 := by
  obtain ⟨e0, e1, e2, e3, e4, e5, e6, e7⟩ := idx_facts t
  funext j
  show V c main_v150 (((cfg3.win 2).blk t).view.emb j) = V c main_v150 j
  refine congrArg _ (funext fun a => Fin.ext ?_)
  match a with
  | ⟨0, _⟩ => show win3_2.index t (0 : Fin 2) * 1 + 1 * (j 0).val = (j 0).val; omega
  | ⟨1, _⟩ => show win3_2.index t (1 : Fin 2) * 10 + 1 * (j 1).val = (j 1).val; omega

/-- The output window's one block sits at the array's origin. -/
theorem emb3 (t : Fin cfg3.N) (j : S512x10.Idx) : ((cfg3.win 3).blk t).view.emb j = j := by
  obtain ⟨e0, e1, e2, e3, e4, e5, e6, e7⟩ := idx_facts t
  funext a; apply Fin.ext
  match a with
  | ⟨0, _⟩ => show win3_3.index t (0 : Fin 2) * 512 + 1 * (j 0).val = (j 0).val; omega
  | ⟨1, _⟩ => show win3_3.index t (1 : Fin 2) * 10 + 1 * (j 1).val = (j 1).val; omega

/-- What the one point writes back is the whole function of the arrays as the region finds them. -/
theorem flushed_eq (c : Dev nD) (t : Fin cfg3.N) :
    (dat3 V c).flushed 3 t
      = ((cfg3.win 3).blk t).view.read (Elt Ideal) (affine (V c main_v149) (V c main_arg9) (V c main_v150)) := by
  show (cfg3.win 3).cut (grid3.coords t) ((dat3 V c).after 3 t) = _
  rw [after3_3]
  unfold out3_3
  rw [View.canon_unit_zero hz]
  simp only [View.ld_unit_zero (S := S512x64) hz, View.ld_unit_zero (S := S64x10) hz, View.ld_unit_zero (S := S1x10) hz]
  refine (pay_eq (iblk3 V c 0 t) (iblk3 V c 1 t) (iblk3 V c 2 t)).trans ?_
  rw [blk0 V c t, blk1 V c t, blk2 V c t]
  funext j
  show _ = affine (V c main_v149) (V c main_arg9) (V c main_v150) (((cfg3.win 3).blk t).view.emb j)
  rw [emb3 t j]

/-- An index of the output is in the one block iff each coordinate is in the block's range. -/
theorem mem_blk (t : Fin cfg3.N) (i : S512x10.Idx) :
    i ∈ ((cfg3.win 3).blk t).view.set ↔ ∀ a : Fin 2, win3_3.index t a * S512x10.size a ≤ (i a).val ∧ (i a).val < win3_3.index t a * S512x10.size a + S512x10.size a := by
  show i ∈ ((View.whole main_v151).slice (win3_3.rect t)).set ↔ _
  rw [View.set_slice_whole, Rect.mem_set_unit]
  exact Iff.rfl

/-- The one block is the whole output. -/
theorem cover (i : S512x10.Idx) :
    ∃ t : Fin cfg3.N, (cfg3.win 3).flush t = true ∧ i ∈ ((cfg3.win 3).blk t).view.set := by
  have hi0 : (i 0).val < 512 := (i 0).isLt
  have hi1 : (i 1).val < 10 := (i 1).isLt
  obtain ⟨e0, e1, e2, e3, e4, e5, e6, e7⟩ := idx_facts t3_0
  refine ⟨t3_0, flush3_3 t3_0, ?_⟩
  rw [mem_blk]
  intro a
  match a with
  | ⟨0, _⟩ => show win3_3.index t3_0 (0 : Fin 2) * 512 ≤ (i 0).val ∧ (i 0).val < win3_3.index t3_0 (0 : Fin 2) * 512 + 512; omega
  | ⟨1, _⟩ => show win3_3.index t3_0 (1 : Fin 2) * 10 ≤ (i 1).val ∧ (i 1).val < win3_3.index t3_0 (1 : Fin 2) * 10 + 10; omega

/-- After the region its output array is the contraction of the pooled array with the weight plus the spread bias
    row, of the arrays as the region found them. -/
theorem value (c : Dev nD) :
    (dat3 V c).arrAt 3 cfg3.N = affine (V c main_v149) (V c main_arg9) (V c main_v150) :=
  (dat3 V c).arrAt_eq_of_cover 3 (affine (V c main_v149) (V c main_arg9) (V c main_v150)) (fun t _ => flushed_eq V c t) cover

end Cert.KernelIdeal.Region3

end
-- ==== Proof.KernelValue.lean ====
/-
  The idealized kernel program's result as one function of its eleven arguments.

  The program's buffers at each boundary are a fold from the launch memory. Read backwards from the result:
  the last region leaves the pooled array times the classifier weight plus the bias row; the pooled array is the
  mean pool of the third convolution of the third product; that product multiplies the rectified second convolution
  of the second product; and so on down to the first product of the node features with the first weight. Every
  buffer a stage reads other than the previous stage's output — the two rows of the edge list, the graph ids, the
  weights and biases — was written before the first region or is an argument, and no later operation or region
  writes it, so at every boundary it still holds what it held then.
-/
import proofs.«157302_j61280593379662_1_alg».proof.Proof.Gen.KernelIdeal.Frame
import proofs.«157302_j61280593379662_1_alg».proof.Proof.Stages
import proofs.«157302_j61280593379662_1_alg».proof.Proof.Region0
import proofs.«157302_j61280593379662_1_alg».proof.Proof.Region1
import proofs.«157302_j61280593379662_1_alg».proof.Proof.Region2
import proofs.«157302_j61280593379662_1_alg».proof.Proof.Region3

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Stages

/-- The whole network: three graph convolutions over linear maps, rectified between, mean-pooled per graph, and the
    classifier's affine map. -/
def net (a0 : Arr Ideal S50000x128 .f32) (a1 : Arr Ideal S2x800000 .i32) (a2 : Arr Ideal S50000 .i32)
    (a3 : Arr Ideal S128x64 .f32) (a4 : Arr Ideal S64 .f32) (a5 : Arr Ideal S64x64 .f32) (a6 : Arr Ideal S64 .f32)
    (a7 : Arr Ideal S64x64 .f32) (a8 : Arr Ideal S64 .f32) (a9 : Arr Ideal S64x10 .f32) (a10 : Arr Ideal S10 .f32) :
    Arr Ideal S512x10 .f32 :=
  Region3.affine
    (pool (conv (Region2.prod (relu (conv (Region1.prod (relu (conv (Region0.prod a0 a3) a4 (src a1) (dst a1))) a5)
      a6 (src a1) (dst a1))) a7) a8 (src a1) (dst a1)) a2)
    a9 (biasRow a10)

variable (m : (ℓ : Loc nD τ sig) → Buf (Elt Ideal) ℓ) (ρ : Dev nD → PrngReg)

/-! ## A buffer nothing writes keeps its contents -/

theorem W10_keep (c : Dev nD) (b : Ref sig .tc) (hb : ∀ w, Pipeline.arrRef spec3 w ≠ b) :
    W10 m ρ c (no_index (Proc.devRef .tc b)) = W9 m ρ c (Proc.devRef .tc b) := W10_of_ne m ρ c b hb
theorem W8_keep (c : Dev nD) (b : Ref sig .tc) (hb : ∀ w, Pipeline.arrRef spec2 w ≠ b) :
    W8 m ρ c (no_index (Proc.devRef .tc b)) = W7 m ρ c (Proc.devRef .tc b) := W8_of_ne m ρ c b hb
theorem W5_keep (c : Dev nD) (b : Ref sig .tc) (hb : ∀ w, Pipeline.arrRef spec1 w ≠ b) :
    W5 m ρ c (no_index (Proc.devRef .tc b)) = W4 m ρ c (Proc.devRef .tc b) := W5_of_ne m ρ c b hb
theorem W2_keep (c : Dev nD) (b : Ref sig .tc) (hb : ∀ w, Pipeline.arrRef spec0 w ≠ b) :
    W2 m ρ c (no_index (Proc.devRef .tc b)) = W1 m ρ c (Proc.devRef .tc b) := W2_of_ne m ρ c b hb

/-- Walks a buffer's contents at a boundary back through the regions and host stretches that do not write it, to
    the operation that wrote it or to the launch memory. -/
macro "walk" : tactic =>
  `(tactic| (simp (disch := decide) only [W10_keep, W8_keep, W5_keep, W2_keep, W9, W7, W6, W4, W3, W1,
      hostOps0, hostOps1, hostOps1_1, hostOps2, hostOps2_1, hostOps3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

variable (c : Dev nD)

/-! ## What each stage reads beside the previous stage's output -/

theorem leaf1_a0 : W1 m ρ c (Proc.devRef .tc main_arg0) = m ((c : Thread nD τ).loc main_arg0) := by walk <;> rfl
theorem leaf1_a3 : W1 m ρ c (Proc.devRef .tc main_arg3) = m ((c : Thread nD τ).loc main_arg3) := by walk <;> rfl
theorem leaf2_a4 : W2 m ρ c (Proc.devRef .tc main_arg4) = m ((c : Thread nD τ).loc main_arg4) := by walk <;> rfl
theorem leaf2_v1 : W2 m ρ c (Proc.devRef .tc main_v1) = src (m ((c : Thread nD τ).loc main_arg1)) := by walk <;> rfl
theorem leaf2_v3 : W2 m ρ c (Proc.devRef .tc main_v3) = dst (m ((c : Thread nD τ).loc main_arg1)) := by walk <;> rfl
theorem leaf4_a5 : W4 m ρ c (Proc.devRef .tc main_arg5) = m ((c : Thread nD τ).loc main_arg5) := by walk <;> rfl
theorem leaf5_a6 : W5 m ρ c (Proc.devRef .tc main_arg6) = m ((c : Thread nD τ).loc main_arg6) := by walk <;> rfl
theorem leaf5_v1 : W5 m ρ c (Proc.devRef .tc main_v1) = src (m ((c : Thread nD τ).loc main_arg1)) := by walk <;> rfl
theorem leaf5_v3 : W5 m ρ c (Proc.devRef .tc main_v3) = dst (m ((c : Thread nD τ).loc main_arg1)) := by walk <;> rfl
theorem leaf7_a7 : W7 m ρ c (Proc.devRef .tc main_arg7) = m ((c : Thread nD τ).loc main_arg7) := by walk <;> rfl
theorem leaf8_a8 : W8 m ρ c (Proc.devRef .tc main_arg8) = m ((c : Thread nD τ).loc main_arg8) := by walk <;> rfl
theorem leaf8_v1 : W8 m ρ c (Proc.devRef .tc main_v1) = src (m ((c : Thread nD τ).loc main_arg1)) := by walk <;> rfl
theorem leaf8_v3 : W8 m ρ c (Proc.devRef .tc main_v3) = dst (m ((c : Thread nD τ).loc main_arg1)) := by walk <;> rfl
theorem leaf8_a2 : W8 m ρ c (Proc.devRef .tc main_arg2) = m ((c : Thread nD τ).loc main_arg2) := by walk <;> rfl
theorem leaf8_a10 : W8 m ρ c (Proc.devRef .tc main_arg10) = m ((c : Thread nD τ).loc main_arg10) := by walk <;> rfl
theorem leaf9_a9 : W9 m ρ c (Proc.devRef .tc main_arg9) = m ((c : Thread nD τ).loc main_arg9) := by walk <;> rfl

/-! ## Each region and each stretch, read at its output -/

theorem step10 : W10 m ρ c (Proc.devRef .tc main_v151)
    = Region3.affine (W9 m ρ c (Proc.devRef .tc main_v149)) (W9 m ρ c (Proc.devRef .tc main_arg9)) (W9 m ρ c (Proc.devRef .tc main_v150)) :=
  (W10_arr m ρ c 3).trans (Region3.value (V9 m ρ) c)

theorem step9 : W9 m ρ c (Proc.devRef .tc main_v149)
    = pool (conv (W8 m ρ c (Proc.devRef .tc main_v94)) (W8 m ρ c (Proc.devRef .tc main_arg8)) (W8 m ρ c (Proc.devRef .tc main_v1)) (W8 m ρ c (Proc.devRef .tc main_v3)))
        (W8 m ρ c (Proc.devRef .tc main_arg2)) :=
  Stages.layer3 (W8 m ρ c)

theorem step9b : W9 m ρ c (Proc.devRef .tc main_v150) = biasRow (W8 m ρ c (Proc.devRef .tc main_arg10)) :=
  Stages.bias3 (W8 m ρ c)

theorem step8 : W8 m ρ c (Proc.devRef .tc main_v94) = Region2.prod (W7 m ρ c (Proc.devRef .tc main_v93)) (W7 m ρ c (Proc.devRef .tc main_arg7)) :=
  (W8_arr m ρ c 2).trans (Region2.value (V7 m ρ) c)

theorem step7 : W7 m ρ c (Proc.devRef .tc main_v93)
    = relu (conv (W5 m ρ c (Proc.devRef .tc main_v49)) (W5 m ρ c (Proc.devRef .tc main_arg6)) (W5 m ρ c (Proc.devRef .tc main_v1)) (W5 m ρ c (Proc.devRef .tc main_v3))) :=
  Stages.layer2 (W5 m ρ c)

theorem step5 : W5 m ρ c (Proc.devRef .tc main_v49) = Region1.prod (W4 m ρ c (Proc.devRef .tc main_v48)) (W4 m ρ c (Proc.devRef .tc main_arg5)) :=
  (W5_arr m ρ c 2).trans (Region1.value (V4 m ρ) c)

theorem step4 : W4 m ρ c (Proc.devRef .tc main_v48)
    = relu (conv (W2 m ρ c (Proc.devRef .tc main_v4)) (W2 m ρ c (Proc.devRef .tc main_arg4)) (W2 m ρ c (Proc.devRef .tc main_v1)) (W2 m ρ c (Proc.devRef .tc main_v3))) :=
  Stages.layer1 (W2 m ρ c)

theorem step2 : W2 m ρ c (Proc.devRef .tc main_v4) = Region0.prod (W1 m ρ c (Proc.devRef .tc main_arg0)) (W1 m ρ c (Proc.devRef .tc main_arg3)) :=
  (W2_arr m ρ c 2).trans (Region0.value (V1 m ρ) c)

/-- The result buffer at the last boundary is the network of the launch memory's argument arrays. -/
theorem result : W10 m ρ c (Proc.devRef .tc main_v151)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  rw [step10, step9, step9b, step8, step7, step5, step4, step2,
    leaf9_a9, leaf8_a8, leaf8_v1, leaf8_v3, leaf8_a2, leaf8_a10, leaf7_a7, leaf5_a6, leaf5_v1, leaf5_v3, leaf4_a5,
    leaf2_a4, leaf2_v1, leaf2_v3, leaf1_a0, leaf1_a3]
  rfl

end Cert.KernelIdeal.Fold

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibBiasRow.lean ====
/-
  A bias vector spread over the rows of a matrix, two ways.

  A host program adds a per-column vector [b] to an [a, b] matrix by setting it as a row [1, b] with a broadcast
  (dims = [1]) and spreading that row down the rows (dims = [0, 1]). A kernel that is handed the vector already
  reshaped to one row [1, b] spreads that row with a plain broadcast. Read at (p, q) both arrays hold the vector's
  entry q, so the two arrays are equal. General in the two extents and the element type.
-/
import proofs.«157302_j61280593379662_1_alg».proof.Proof.LibBroadcastInDim
import Idealize.ShloMosaic.Lib.ValueLayout

noncomputable section

namespace Cert.Lib.BiasRow

open Idealize.ShloMosaic Idealize.ShloMosaic.ValueIdx

/-- A vector [b] set as a row by broadcast and that row spread by broadcast, against the vector cast to one row and
    the row spread down a rows: both hold the vector's entry q at (p, q). -/
theorem row_spread_two_ways {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (h3 : (⟨2, ![1, b]⟩ : Shape).BroadcastsInDim ⟨2, ![a, b]⟩ ![0, 1]) (h4 : (⟨1, ![b]⟩ : Shape).BroadcastsInDim ⟨2, ![1, b]⟩ ![1]) :
    broadcastInDim ⟨2, ![a, b]⟩ ![0, 1] h3 (broadcastInDim ⟨2, ![1, b]⟩ ![1] h4 x)
      = broadcastTo ⟨2, ![a, b]⟩ (shapeCast ⟨2, ![1, b]⟩ x h1) h2 := by
  funext j
  obtain ⟨p, q, rfl⟩ : ∃ (p : Fin a) (q : Fin b), j = ix2 p q := ⟨j 0, j 1, eq_ix2 j⟩
  rw [Cert.Lib.InDim.row_spread, Cert.Lib.InDim.vec_as_row, broadcastTo_1b_ab_apply, shapeCast_a_1a_apply]

end Cert.Lib.BiasRow

end
-- ==== Proof.Bridge.lean ====
/-
  The reference program's result is the same network.

  The reference computes each linear map as one whole contraction on the host where the kernel program runs a product
  region, and adds the classifier's bias as a vector set as a row and spread down the rows where the kernel program
  adds the one-row bias array spread down the rows. A host contraction with these dimension numbers IS the plain
  contraction the regions were shown to leave, and the two spreads of the bias hold the bias entry of the column at
  every row. Everything else — the edge rows, the degree normalization, the gathers and the sums into target rows,
  the rectifications and the mean pool — is operation for operation the same term on both sides.
-/
import proofs.«157302_j61280593379662_1_alg».proof.Proof.Gen.ReferenceIdeal.Run
import proofs.«157302_j61280593379662_1_alg».proof.Proof.KernelValue
import proofs.«157302_j61280593379662_1_alg».proof.Proof.LibBiasRow

set_option maxRecDepth 16384

noncomputable section

namespace Cert.Bridge

open Idealize.ShloMosaic Idealize.ShloMosaic.TcCoe Idealize.ShloMosaic.ValueIdx Idealize.SL.Sem

/-- The reference run's result term is the network of the reference's argument arrays. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v153 (F := Ideal) m' c
      = Cert.KernelIdeal.Fold.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) := by
  unfold Cert.ReferenceIdeal.Value.res_main_v153
  rw [Cert.Lib.BiasRow.row_spread_two_ways _ Cert.KernelIdeal.Facts₀.shapeCasts_S10_S1x10 Cert.KernelIdeal.Facts₀.broadcasts_S1x10_S512x10]
  rfl

end Cert.Bridge

end
-- ==== Proof.lean ====
/-
  A three-layer graph convolution network with mean pooling and a linear classifier, its four linear maps run as
  matrix-product regions, against the same network written with whole host contractions.

  Over the extended reals both programs compute one function of the eleven arguments. A product region tiles its
  output by blocks of rows; each block is the block of input rows times the whole weight on the matrix unit, so the
  tiled output is the whole contraction the reference performs on the host (the change of float format on the way
  into the matrix unit is the identity there). The last region also adds the bias row, which the reference adds
  after its contraction. Between the products both programs run the same host operations: degree normalization,
  gathers along the edges, sums into target rows, the self-loop term, the bias, the rectification, and the mean pool.
  No law of arithmetic beyond the matrix product's reading as a finite sum is needed, so finiteness of the inputs is
  never used.

  The three frames: the two kernel programs' are the generated frame certificates; the reference's is its run with
  the result dropped. The idealization rewrote nothing, so that claim is trivial.
-/
import proofs.«157302_j61280593379662_1_alg».proof.Defs
import proofs.«157302_j61280593379662_1_alg».proof.Proof.Gen.Kernel
import proofs.«157302_j61280593379662_1_alg».proof.Proof.Gen.Kernel.Skeleton
import proofs.«157302_j61280593379662_1_alg».proof.Proof.Gen.Kernel.Launch
import proofs.«157302_j61280593379662_1_alg».proof.Proof.Gen.Kernel.Points
import proofs.«157302_j61280593379662_1_alg».proof.Proof.Gen.Kernel.Frame
import proofs.«157302_j61280593379662_1_alg».proof.Proof.Gen.KernelIdeal
import proofs.«157302_j61280593379662_1_alg».proof.Proof.Gen.KernelIdeal.Skeleton
import proofs.«157302_j61280593379662_1_alg».proof.Proof.Gen.KernelIdeal.Launch
import proofs.«157302_j61280593379662_1_alg».proof.Proof.Gen.KernelIdeal.Points
import proofs.«157302_j61280593379662_1_alg».proof.Proof.Gen.KernelIdeal.Frame
import proofs.«157302_j61280593379662_1_alg».proof.Proof.Gen.ReferenceIdeal
import proofs.«157302_j61280593379662_1_alg».proof.Proof.Gen.ReferenceIdeal.Run
import proofs.«157302_j61280593379662_1_alg».proof.Proof.Gen.Pre_finite_inputs
import proofs.«157302_j61280593379662_1_alg».proof.Proof.KernelRun
import proofs.«157302_j61280593379662_1_alg».proof.Proof.KernelValue
import proofs.«157302_j61280593379662_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the argument arrays in their result buffer. -/
theorem algebraic : Cert.algebraic_KernelIdeal_ReferenceIdeal := by
  intro m ρ m' ρ' _ hagree
  refine ⟨fun c => Cert.KernelIdeal.Fold.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Fold.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.Bridge.reference_result m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
